-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x56x56 : Shape := ⟨4, ![4, 32, 56, 56]⟩
abbrev S64x32x3x3 : Shape := ⟨4, ![64, 32, 3, 3]⟩
abbrev S_ : Shape := ⟨0, ![]⟩

class Facts : Prop where
  bcast_S_S4x32x56x56 : S_.BroadcastsInDim S4x32x56x56 (![] : Fin 0 → Fin S4x32x56x56.rank)
  reducesTo_S4x32x56x56_S_d0_1_2_3 : S4x32x56x56.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_

variable [Facts]

def fn {F : FTy → Type} [FloatOps F] (main_arg0 : FVec F S4x32x56x56 .f32) (main_arg1 : FVec F S64x32x3x3 .f32) : IVec S_ 1 :=
  let main_v0 : FVec F S4x32x56x56 .f32 := Host.absf main_arg0
  let main_cst : FVec F S_ .f32 := constant S_ .f32 0x7F800000#32
  let main_v1 : FVec F S4x32x56x56 .f32 := broadcastInDim S4x32x56x56 ![] bcast_S_S4x32x56x56 main_cst
  let main_v2 : IVec S4x32x56x56 1 := cmpf .olt main_v0 main_v1
  let main_c : IVec S_ 1 := constantI S_ 1 1#1
  let main_v3 : IVec S_ 1 := (fun x v => Host.reduce IntOp.andi x v reducesTo_S4x32x56x56_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  main_v8
-- ==== Kernel.lean ====
abbrev S4x32x56x56 : Shape := ⟨4, ![4, 32, 56, 56]⟩
abbrev S64x32x3x3 : Shape := ⟨4, ![64, 32, 3, 3]⟩
abbrev S_ : Shape := ⟨0, ![]⟩
abbrev S4x32x58x58 : Shape := ⟨4, ![4, 32, 58, 58]⟩
abbrev S4x32x1x56x56 : Shape := ⟨5, ![4, 32, 1, 56, 56]⟩
abbrev S4x32x9x56x56 : Shape := ⟨5, ![4, 32, 9, 56, 56]⟩
abbrev S4x288x3136 : Shape := ⟨3, ![4, 288, 3136]⟩
abbrev S64x288 : Shape := ⟨2, ![64, 288]⟩
abbrev S288x64 : Shape := ⟨2, ![288, 64]⟩
abbrev S4x288x3200 : Shape := ⟨3, ![4, 288, 3200]⟩
abbrev S4x64x3200 : Shape := ⟨3, ![4, 64, 3200]⟩
abbrev S1x288x640 : Shape := ⟨3, ![1, 288, 640]⟩
abbrev S1x64x640 : Shape := ⟨3, ![1, 64, 640]⟩
abbrev S64x640 : Shape := ⟨2, ![64, 640]⟩
abbrev S1x32x640 : Shape := ⟨3, ![1, 32, 640]⟩
abbrev S32x640 : Shape := ⟨2, ![32, 640]⟩
abbrev S32x64 : Shape := ⟨2, ![32, 64]⟩
abbrev S32x64x1 : Shape := ⟨3, ![32, 64, 1]⟩
abbrev S32x1x640 : Shape := ⟨3, ![32, 1, 640]⟩
abbrev S32x64x640 : Shape := ⟨3, ![32, 64, 640]⟩
abbrev S4x64x3136 : Shape := ⟨3, ![4, 64, 3136]⟩
abbrev S4x64x56x56 : Shape := ⟨4, ![4, 64, 56, 56]⟩

abbrev nBuf : Space → Nat
  | .hbm => 40
  | .vmem => 5
  | .smem => 0
  | _ => 0

abbrev bufTy : (tb : Table) → Fin (tcTables nBuf tb) → BufTy
  | .hbm, ⟨0, _⟩ => ⟨S4x32x56x56, .f32⟩
  | .hbm, ⟨1, _⟩ => ⟨S64x32x3x3, .f32⟩
  | .hbm, ⟨2, _⟩ => ⟨S_, .i32⟩
  | .hbm, ⟨3, _⟩ => ⟨S_, .f32⟩
  | .hbm, ⟨4, _⟩ => ⟨S4x32x58x58, .f32⟩
  | .hbm, ⟨5, _⟩ => ⟨S4x32x56x56, .f32⟩
  | .hbm, ⟨6, _⟩ => ⟨S4x32x56x56, .f32⟩
  | .hbm, ⟨7, _⟩ => ⟨S4x32x56x56, .f32⟩
  | .hbm, ⟨8, _⟩ => ⟨S4x32x56x56, .f32⟩
  | .hbm, ⟨9, _⟩ => ⟨S4x32x56x56, .f32⟩
  | .hbm, ⟨10, _⟩ => ⟨S4x32x56x56, .f32⟩
  | .hbm, ⟨11, _⟩ => ⟨S4x32x56x56, .f32⟩
  | .hbm, ⟨12, _⟩ => ⟨S4x32x56x56, .f32⟩
  | .hbm, ⟨13, _⟩ => ⟨S4x32x56x56, .f32⟩
  | .hbm, ⟨14, _⟩ => ⟨S4x32x1x56x56, .f32⟩
  | .hbm, ⟨15, _⟩ => ⟨S4x32x1x56x56, .f32⟩
  | .hbm, ⟨16, _⟩ => ⟨S4x32x1x56x56, .f32⟩
  | .hbm, ⟨17, _⟩ => ⟨S4x32x1x56x56, .f32⟩
  | .hbm, ⟨18, _⟩ => ⟨S4x32x1x56x56, .f32⟩
  | .hbm, ⟨19, _⟩ => ⟨S4x32x1x56x56, .f32⟩
  | .hbm, ⟨20, _⟩ => ⟨S4x32x1x56x56, .f32⟩
  | .hbm, ⟨21, _⟩ => ⟨S4x32x1x56x56, .f32⟩
  | .hbm, ⟨22, _⟩ => ⟨S4x32x1x56x56, .f32⟩
  | .hbm, ⟨23, _⟩ => ⟨S4x32x9x56x56, .f32⟩
  | .hbm, ⟨24, _⟩ => ⟨S4x288x3136, .f32⟩
  | .hbm, ⟨25, _⟩ => ⟨S64x288, .f32⟩
  | .hbm, ⟨26, _⟩ => ⟨S288x64, .f32⟩
  | .hbm, ⟨27, _⟩ => ⟨S_, .i32⟩
  | .hbm, ⟨28, _⟩ => ⟨S_, .f32⟩
  | .hbm, ⟨29, _⟩ => ⟨S4x288x3200, .f32⟩
  | .hbm, ⟨30, _⟩ => ⟨S4x64x3200, .f32⟩
  | .hbm, ⟨31, _⟩ => ⟨S4x64x3136, .f32⟩
  | .hbm, ⟨32, _⟩ => ⟨S4x64x56x56, .f32⟩
  | .hbm, ⟨33, _⟩ => ⟨S64x32x3x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x64x56x56, .f32⟩
  | .hbm, ⟨39, _⟩ => ⟨S4x64x56x56, .f32⟩
  | .local _ .vmem, ⟨0, _⟩ => ⟨S1x288x640, .f32⟩
  | .local _ .vmem, ⟨1, _⟩ => ⟨S1x288x640, .f32⟩
  | .local _ .vmem, ⟨2, _⟩ => ⟨S288x64, .f32⟩
  | .local _ .vmem, ⟨3, _⟩ => ⟨S1x64x640, .f32⟩
  | .local _ .vmem, ⟨4, _⟩ => ⟨S1x64x640, .f32⟩
  | _, _ => ⟨S4x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 5], ![false, false]⟩

@[reducible] def k0_t1_loop : Scf.Loop 32 :=
  let c0_i32 : BitVec 32 := 0#32
  let c9_i32 : BitVec 32 := 9#32
  let v1 : BitVec 32 := Scalar.addi c0_i32 c9_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32 : BitVec 32 := 32#32
  let v6 : BitVec 32 := Scalar.muli arg5 c32_i32
  v6
def k0_off1 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let c32_i32 : BitVec 32 := 32#32
  let v6 : BitVec 32 := Scalar.muli arg5 c32_i32
  let v7 : BitVec 32 := v6
  let v8 : Index := Scalar.indexCast v7
  let c0_4 : Index := 0#32
  ![0, v8.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v6 : BitVec 32 := Scalar.muli arg5 c32_i32
  let v7 : BitVec 32 := v6
  let v11 : Index := Scalar.indexCast v7
  let c0_5 : Index := 0#32
  ![v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x288x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S288x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x32x56x56_S4x32x58x58_000_000_110_110 : S4x32x56x56.Pads (![0, 0, 1, 1] : Fin 4 → Nat) ![0, 0, 1, 1] ![0, 0, 0, 0] S4x32x58x58
  h_S_ : 0 < S_.numel
  slices_S4x32x58x58_S4x32x56x56_0_0_0_0 : S4x32x58x58.Slices ![0, 0, 0, 0] S4x32x56x56
  slices_S4x32x58x58_S4x32x56x56_0_0_0_1 : S4x32x58x58.Slices ![0, 0, 0, 1] S4x32x56x56
  slices_S4x32x58x58_S4x32x56x56_0_0_0_2 : S4x32x58x58.Slices ![0, 0, 0, 2] S4x32x56x56
  slices_S4x32x58x58_S4x32x56x56_0_0_1_0 : S4x32x58x58.Slices ![0, 0, 1, 0] S4x32x56x56
  slices_S4x32x58x58_S4x32x56x56_0_0_1_1 : S4x32x58x58.Slices ![0, 0, 1, 1] S4x32x56x56
  slices_S4x32x58x58_S4x32x56x56_0_0_1_2 : S4x32x58x58.Slices ![0, 0, 1, 2] S4x32x56x56
  slices_S4x32x58x58_S4x32x56x56_0_0_2_0 : S4x32x58x58.Slices ![0, 0, 2, 0] S4x32x56x56
  slices_S4x32x58x58_S4x32x56x56_0_0_2_1 : S4x32x58x58.Slices ![0, 0, 2, 1] S4x32x56x56
  slices_S4x32x58x58_S4x32x56x56_0_0_2_2 : S4x32x58x58.Slices ![0, 0, 2, 2] S4x32x56x56
  bcast_S4x32x56x56_S4x32x1x56x56_0_1_3_4 : S4x32x56x56.BroadcastsInDim S4x32x1x56x56 (![0, 1, 3, 4] : Fin 4 → Fin S4x32x1x56x56.rank)
  concatenates_S4x32x1x56x56_S4x32x1x56x56_S4x32x1x56x56_S4x32x1x56x56_S4x32x1x56x56_S4x32x1x56x56_S4x32x1x56x56_S4x32x1x56x56_S4x32x1x56x56_S4x32x9x56x56_d2 : Shape.Concatenates [S4x32x1x56x56, S4x32x1x56x56, S4x32x1x56x56, S4x32x1x56x56, S4x32x1x56x56, S4x32x1x56x56, S4x32x1x56x56, S4x32x1x56x56, S4x32x1x56x56] S4x32x9x56x56 2
  shapeCasts_S4x32x9x56x56_S4x288x3136 : S4x32x9x56x56.ShapeCasts S4x288x3136
  shapeCasts_S64x32x3x3_S64x288 : S64x32x3x3.ShapeCasts S64x288
  transposes_S64x288_S288x64_1_0 : S64x288.Transposes [1, 0] S288x64
  pads_S4x288x3136_S4x288x3200_000_000_0640 : S4x288x3136.Pads (![0, 0, 0] : Fin 3 → Nat) ![0, 0, 64] ![0, 0, 0] S4x288x3200
  h_S1x32x640 : 0 < S1x32x640.numel
  shapeCasts_S1x32x640_S32x640 : S1x32x640.ShapeCasts S32x640
  h_S32x64 : 0 < S32x64.numel
  shapeCasts_S32x64_S32x64 : S32x64.ShapeCasts S32x64
  shapeCasts_S32x64_S32x64x1 : S32x64.ShapeCasts S32x64x1
  shapeCasts_S32x640_S32x1x640 : S32x640.ShapeCasts S32x1x640
  broadcasts_S32x64x1_S32x64x640 : S32x64x1.Broadcasts S32x64x640
  broadcasts_S32x1x640_S32x64x640 : S32x1x640.Broadcasts S32x64x640
  reduces_S32x64x640_S64x640 : S32x64x640.Reduces [0] S64x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S64x640_S1x64x640 : S64x640.ShapeCasts S1x64x640
  slices_S4x64x3200_S4x64x3136_0_0_0 : S4x64x3200.Slices ![0, 0, 0] S4x64x3136
  shapeCasts_S4x64x3136_S4x64x56x56 : S4x64x3136.ShapeCasts S4x64x56x56
  reducesTo_S64x32x3x3_S_d0_1_2_3 : S64x32x3x3.ReducesTo [0, 1, 2, 3] S_
  bcast_S_S4x64x56x56 : S_.BroadcastsInDim S4x64x56x56 (![] : Fin 0 → Fin S4x64x56x56.rank)
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x640.size a ≤ S1x288x640.size a
  k0_off2_inb : ∀ k0_t1 : Fin k0_t1_loop.trips, ∀ a, (k0_off2 k0_t1) a + S32x64.size a ≤ S288x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x640.size a ≤ S4x288x3200.size a
  hwx0_0 : ∀ i : grid0.Coords, EltTy.bits .f32 = 32 ∨ (Rect.block (s := S4x288x3200) S1x288x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .f32 = 32 ∨ (Rect.block (s := S288x64) S288x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x640.size a ≤ S4x64x3200.size a
  hwx0_2 : ∀ i : grid0.Coords, EltTy.bits .f32 = 32 ∨ (Rect.block (s := S4x64x3200) S1x64x640.size (cc0_transform_2 i) (hinb0_2 i)).WholeWords (EltTy.packing .f32)

variable [Facts₀]

abbrev win0_0 : Pipeline.Window sig grid0 :=
  Pipeline.Window.ofSpec (Memref.whole main_v23) S1x288x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x56x56 : Shape := ⟨4, ![4, 32, 56, 56]⟩
abbrev S64x32x3x3 : Shape := ⟨4, ![64, 32, 3, 3]⟩
abbrev S_ : Shape := ⟨0, ![]⟩
abbrev S4x32x58x58 : Shape := ⟨4, ![4, 32, 58, 58]⟩
abbrev S4x32x1x56x56 : Shape := ⟨5, ![4, 32, 1, 56, 56]⟩
abbrev S4x32x9x56x56 : Shape := ⟨5, ![4, 32, 9, 56, 56]⟩
abbrev S4x288x3136 : Shape := ⟨3, ![4, 288, 3136]⟩
abbrev S64x288 : Shape := ⟨2, ![64, 288]⟩
abbrev S4x1x288x3136 : Shape := ⟨4, ![4, 1, 288, 3136]⟩
abbrev S1x64x288x1 : Shape := ⟨4, ![1, 64, 288, 1]⟩
abbrev S4x64x288x3136 : Shape := ⟨4, ![4, 64, 288, 3136]⟩
abbrev S4x64x3136 : Shape := ⟨3, ![4, 64, 3136]⟩
abbrev S4x64x56x56 : Shape := ⟨4, ![4, 64, 56, 56]⟩

abbrev nBuf : Space → Nat
  | .hbm => 41
  | .vmem => 0
  | .smem => 0
  | _ => 0

abbrev bufTy : (tb : Table) → Fin (tcTables nBuf tb) → BufTy
  | .hbm, ⟨0, _⟩ => ⟨S4x32x56x56, .f32⟩
  | .hbm, ⟨1, _⟩ => ⟨S64x32x3x3, .f32⟩
  | .hbm, ⟨2, _⟩ => ⟨S64x32x3x3, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S4x32x58x58, .f32⟩
  | .hbm, ⟨10, _⟩ => ⟨S4x32x56x56, .f32⟩
  | .hbm, ⟨11, _⟩ => ⟨S4x32x56x56, .f32⟩
  | .hbm, ⟨12, _⟩ => ⟨S4x32x56x56, .f32⟩
  | .hbm, ⟨13, _⟩ => ⟨S4x32x56x56, .f32⟩
  | .hbm, ⟨14, _⟩ => ⟨S4x32x56x56, .f32⟩
  | .hbm, ⟨15, _⟩ => ⟨S4x32x56x56, .f32⟩
  | .hbm, ⟨16, _⟩ => ⟨S4x32x56x56, .f32⟩
  | .hbm, ⟨17, _⟩ => ⟨S4x32x56x56, .f32⟩
  | .hbm, ⟨18, _⟩ => ⟨S4x32x56x56, .f32⟩
  | .hbm, ⟨19, _⟩ => ⟨S4x32x1x56x56, .f32⟩
  | .hbm, ⟨20, _⟩ => ⟨S4x32x1x56x56, .f32⟩
  | .hbm, ⟨21, _⟩ => ⟨S4x32x1x56x56, .f32⟩
  | .hbm, ⟨22, _⟩ => ⟨S4x32x1x56x56, .f32⟩
  | .hbm, ⟨23, _⟩ => ⟨S4x32x1x56x56, .f32⟩
  | .hbm, ⟨24, _⟩ => ⟨S4x32x1x56x56, .f32⟩
  | .hbm, ⟨25, _⟩ => ⟨S4x32x1x56x56, .f32⟩
  | .hbm, ⟨26, _⟩ => ⟨S4x32x1x56x56, .f32⟩
  | .hbm, ⟨27, _⟩ => ⟨S4x32x1x56x56, .f32⟩
  | .hbm, ⟨28, _⟩ => ⟨S4x32x9x56x56, .f32⟩
  | .hbm, ⟨29, _⟩ => ⟨S4x288x3136, .f32⟩
  | .hbm, ⟨30, _⟩ => ⟨S64x288, .f32⟩
  | .hbm, ⟨31, _⟩ => ⟨S4x1x288x3136, .f32⟩
  | .hbm, ⟨32, _⟩ => ⟨S1x64x288x1, .f32⟩
  | .hbm, ⟨33, _⟩ => ⟨S4x64x288x3136, .f32⟩
  | .hbm, ⟨34, _⟩ => ⟨S4x64x288x3136, .f32⟩
  | .hbm, ⟨35, _⟩ => ⟨S4x64x288x3136, .f32⟩
  | .hbm, ⟨36, _⟩ => ⟨S_, .f32⟩
  | .hbm, ⟨37, _⟩ => ⟨S4x64x3136, .f32⟩
  | .hbm, ⟨38, _⟩ => ⟨S4x64x3136, .f32⟩
  | .hbm, ⟨39, _⟩ => ⟨S4x64x3136, .f32⟩
  | .hbm, ⟨40, _⟩ => ⟨S4x64x56x56, .f32⟩
  | _, _ => ⟨S4x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  reducesTo_S64x32x3x3_S_d0_1_2_3 : S64x32x3x3.ReducesTo [0, 1, 2, 3] S_
  h_S_ : 0 < S_.numel
  pads_S4x32x56x56_S4x32x58x58_000_000_110_110 : S4x32x56x56.Pads (![0, 0, 1, 1] : Fin 4 → Nat) ![0, 0, 1, 1] ![0, 0, 0, 0] S4x32x58x58
  slices_S4x32x58x58_S4x32x56x56_0_0_0_0 : S4x32x58x58.Slices ![0, 0, 0, 0] S4x32x56x56
  slices_S4x32x58x58_S4x32x56x56_0_0_0_1 : S4x32x58x58.Slices ![0, 0, 0, 1] S4x32x56x56
  slices_S4x32x58x58_S4x32x56x56_0_0_0_2 : S4x32x58x58.Slices ![0, 0, 0, 2] S4x32x56x56
  slices_S4x32x58x58_S4x32x56x56_0_0_1_0 : S4x32x58x58.Slices ![0, 0, 1, 0] S4x32x56x56
  slices_S4x32x58x58_S4x32x56x56_0_0_1_1 : S4x32x58x58.Slices ![0, 0, 1, 1] S4x32x56x56
  slices_S4x32x58x58_S4x32x56x56_0_0_1_2 : S4x32x58x58.Slices ![0, 0, 1, 2] S4x32x56x56
  slices_S4x32x58x58_S4x32x56x56_0_0_2_0 : S4x32x58x58.Slices ![0, 0, 2, 0] S4x32x56x56
  slices_S4x32x58x58_S4x32x56x56_0_0_2_1 : S4x32x58x58.Slices ![0, 0, 2, 1] S4x32x56x56
  slices_S4x32x58x58_S4x32x56x56_0_0_2_2 : S4x32x58x58.Slices ![0, 0, 2, 2] S4x32x56x56
  bcast_S4x32x56x56_S4x32x1x56x56_0_1_3_4 : S4x32x56x56.BroadcastsInDim S4x32x1x56x56 (![0, 1, 3, 4] : Fin 4 → Fin S4x32x1x56x56.rank)
  concatenates_S4x32x1x56x56_S4x32x1x56x56_S4x32x1x56x56_S4x32x1x56x56_S4x32x1x56x56_S4x32x1x56x56_S4x32x1x56x56_S4x32x1x56x56_S4x32x1x56x56_S4x32x9x56x56_d2 : Shape.Concatenates [S4x32x1x56x56, S4x32x1x56x56, S4x32x1x56x56, S4x32x1x56x56, S4x32x1x56x56, S4x32x1x56x56, S4x32x1x56x56, S4x32x1x56x56, S4x32x1x56x56] S4x32x9x56x56 2
  shapeCasts_S4x32x9x56x56_S4x288x3136 : S4x32x9x56x56.ShapeCasts S4x288x3136
  shapeCasts_S64x32x3x3_S64x288 : S64x32x3x3.ShapeCasts S64x288
  bcast_S4x288x3136_S4x1x288x3136_0_2_3 : S4x288x3136.BroadcastsInDim S4x1x288x3136 (![0, 2, 3] : Fin 3 → Fin S4x1x288x3136.rank)
  bcast_S64x288_S1x64x288x1_1_2 : S64x288.BroadcastsInDim S1x64x288x1 (![1, 2] : Fin 2 → Fin S1x64x288x1.rank)
  bcast_S4x1x288x3136_S4x64x288x3136_0_1_2_3 : S4x1x288x3136.BroadcastsInDim S4x64x288x3136 (![0, 1, 2, 3] : Fin 4 → Fin S4x64x288x3136.rank)
  bcast_S1x64x288x1_S4x64x288x3136_0_1_2_3 : S1x64x288x1.BroadcastsInDim S4x64x288x3136 (![0, 1, 2, 3] : Fin 4 → Fin S4x64x288x3136.rank)
  reducesTo_S4x64x288x3136_S4x64x3136_d2 : S4x64x288x3136.ReducesTo [2] S4x64x3136
  bcast_S_S4x64x3136 : S_.BroadcastsInDim S4x64x3136 (![] : Fin 0 → Fin S4x64x3136.rank)
  shapeCasts_S4x64x3136_S4x64x56x56 : S4x64x3136.ShapeCasts S4x64x56x56

variable [Facts₀]

class Facts : Prop extends Facts₀ where

variable [Facts]
-- ==== Proof.K.FrameKit.lean ====
/-
  The launch side of the kernel program's frame, for any float instance.
  @main is four stretches of host operations (a zero constant; the padding of the input by a ring of zeros; the nine
  shifted 56×56 windows of the padded input, each given a unit axis and concatenated along it, reshaped to 288 rows of 3136
  columns, beside the weights reshaped to 64×288 and transposed; the padding of the columns to 3200), the one pipelined
  region over a 4×5 grid, and nine host operations after it (the first 3136 columns, the reshape to 56×56, the mean of the
  absolute weights and the product with it). Here: the buffer contents the region finds, as the fold of the four
  stretches over the launch memory; that @main reduces to the region continued by the later operations; that those
  later operations touch no staging buffer, allocate nothing and write none of the three arrays the region stages; that no
  host operation writes an argument; each window's block at a grid point; and the frame claim's post from a run's.
-/
import proofs.«122055_j66030827209197_2_alg».proof.Proof.Gen.Kernel.Launch
import proofs.«122055_j66030827209197_2_alg».proof.Proof.Gen.Kernel.Skeleton
import proofs.«122055_j66030827209197_2_alg».proof.Proof.Gen.Kernel.Loops
import proofs.«122055_j66030827209197_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the four stretches of host operations folded over the
    launch memory. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The operations after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the three arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes the second argument: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded unfolded input's staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The transposed weights' staging buffer holds the whole array at every point, fetched there (the first point) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run that ends with every buffer the region does not
    stage as the later host operations leave it has both arguments unchanged: neither is staged, and no host operation
    writes either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The staging buffers the body is called with -/

/-- One staging buffer of the output window, through which its contents are stated (the choice does not matter). -/
abbrev VO0_2 : View sig .tc .vmem S1x64x640 .f32 := (Memref.whole cc0_stg2_0 : Memref sig .tc .vmem S1x64x640 .f32).view
/-- Each window's current staging buffer at grid point t, and that it is a whole buffer. -/
abbrev ms0_0 (t : Fin cfg0.N) : Memref sig .tc .vmem S1x288x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S288x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x640 .f32 := win0_2.stage (cfg0.slots t 2)
abbrev hs0_2 (t : Fin cfg0.N) : (ms0_2 t).IsWhole := hstage0_2 ((cfg0.slots t 2).cast nbuf0_2)

end Cert.Kernel.Fr

end
-- ==== Proof.K.Run.lean ====
/-
  The kernel body run once, on any whole staging buffers, for any float instance.
  The body zeroes a 64×640 accumulator, goes nine times round a loop that loads 32 rows of the 288×640 input block and the
  same 32 rows of the 288×64 transposed weights and adds, to the accumulator at (o, l), the sum over those rows r of
  min(weight(r, o), input(r, l)), and then stores the accumulator as the whole 1×64×640 output block. The loop is
  taken through its invariant (the accumulator before trip k is the k-fold composition of the trips' results), never
  unrolled. What the output buffer ends with is a list of stored pieces, found by the run itself.
-/
import proofs.«122055_j66030827209197_2_alg».proof.Proof.K.FrameKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging buffer, with the proof that on whole staging
    buffers — the two inputs' at their contents, the output's at anything — the body runs to its end holding the
    inputs' as they were and the output's with the pieces written. -/
noncomputable def kernelRun0_A (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) :
    { L2 : List (View.Piece (Elt F) S1x64x640 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__minsum_kernel i arg2 harg2 arg3 harg3 arg4 harg4) K } := by
  refine ⟨?_, fun E K => ?run⟩
  case run =>
    simp only [cc0__minsum_kernel_eq_skeleton]; unfold cc0__minsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.K.Frame.lean ====
/-
  The kernel program's run and frame, for any float instance.
  At each of the 20 grid points the body is handed the point's block of the padded unfolded input (288×640), the whole
  transposed weights (288×64) and an output staging buffer at anything, and leaves the inputs as they were and the output
  buffer covered by its one store. The proof data says so point by point; the launch theorem for a region followed by
  host operations then gives the whole run: it terminates, nothing faults, the three staged arrays end at what the
  proof data says, and every other buffer ends as the later host operations leave it — the two arguments, which no
  operation writes, as launched.
-/
import proofs.«122055_j66030827209197_2_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces for the output block tile it (one store of the whole block), so they cover it. -/
theorem cover0_A_2 (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) (y : S1x64x640.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S1x64x640.size (by sl_kernel_rfl) y

/-- What the body leaves in the output's staging buffer: its pieces read back. -/
def out0_A_2 (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) : Vec F S1x64x640 .f32 :=
  VO0_2.read (Elt F) (VO0_2.writes (Elt F) VO0_2.junk (kernelRun0_A c i arg2 harg2 arg3 harg3 arg4 harg4 x0 x1).1)

/-! ## The pipeline's proof data -/

/-- The arrays as the region finds them; after the body at point t each input's buffer at its block and the output's at
    what the body's store left; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_A_2 c (grid0.coords t) (ms0_0 t) (hs0_0 t) (ms0_1 t) (hs0_1 t) (ms0_2 t) (hs0_2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_A_2 c (grid0.coords t) (ms0_0 t) (hs0_0 t) (ms0_1 t) (hs0_1 t) (ms0_2 t) (hs0_2 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks, so the run applies; the invariant passes through
    unread; the output's buffer ends covered by the body's pieces; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    staged array at what the proof data says and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KI.FrameKit.lean ====
/-
  The launch side of the kernel program's frame, for any float instance.
  @main is four stretches of host operations (a zero constant; the padding of the input by a ring of zeros; the nine
  shifted 56×56 windows of the padded input, each given a unit axis and concatenated along it, reshaped to 288 rows of 3136
  columns, beside the weights reshaped to 64×288 and transposed; the padding of the columns to 3200), the one pipelined
  region over a 4×5 grid, and nine host operations after it (the first 3136 columns, the reshape to 56×56, the mean of the
  absolute weights and the product with it). Here: the buffer contents the region finds, as the fold of the four
  stretches over the launch memory; that @main reduces to the region continued by the later operations; that those
  later operations touch no staging buffer, allocate nothing and write none of the three arrays the region stages; that no
  host operation writes an argument; each window's block at a grid point; and the frame claim's post from a run's.
-/
import proofs.«122055_j66030827209197_2_alg».proof.Proof.Gen.KernelIdeal.Launch
import proofs.«122055_j66030827209197_2_alg».proof.Proof.Gen.KernelIdeal.Skeleton
import proofs.«122055_j66030827209197_2_alg».proof.Proof.Gen.KernelIdeal.Loops
import proofs.«122055_j66030827209197_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the four stretches of host operations folded over the
    launch memory. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The operations after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the three arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes the second argument: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded unfolded input's staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The transposed weights' staging buffer holds the whole array at every point, fetched there (the first point) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run that ends with every buffer the region does not
    stage as the later host operations leave it has both arguments unchanged: neither is staged, and no host operation
    writes either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The staging buffers the body is called with -/

/-- One staging buffer of the output window, through which its contents are stated (the choice does not matter). -/
abbrev VO0_2 : View sig .tc .vmem S1x64x640 .f32 := (Memref.whole cc0_stg2_0 : Memref sig .tc .vmem S1x64x640 .f32).view
/-- Each window's current staging buffer at grid point t, and that it is a whole buffer. -/
abbrev ms0_0 (t : Fin cfg0.N) : Memref sig .tc .vmem S1x288x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S288x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x640 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KI.Run.lean ====
/-
  The kernel body run once, on any whole staging buffers, for any float instance.
  The body zeroes a 64×640 accumulator, goes nine times round a loop that loads 32 rows of the 288×640 input block and the
  same 32 rows of the 288×64 transposed weights and adds, to the accumulator at (o, l), the sum over those rows r of
  min(weight(r, o), input(r, l)), and then stores the accumulator as the whole 1×64×640 output block. The loop is
  taken through its invariant (the accumulator before trip k is the k-fold composition of the trips' results), never
  unrolled. What the output buffer ends with is a list of stored pieces, found by the run itself.
-/
import proofs.«122055_j66030827209197_2_alg».proof.Proof.KI.FrameKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging buffer, with the proof that on whole staging
    buffers — the two inputs' at their contents, the output's at anything — the body runs to its end holding the
    inputs' as they were and the output's with the pieces written. -/
noncomputable def kernelRun0_A (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) :
    { L2 : List (View.Piece (Elt F) S1x64x640 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__minsum_kernel i arg2 harg2 arg3 harg3 arg4 harg4) K } := by
  refine ⟨?_, fun E K => ?run⟩
  case run =>
    simp only [cc0__minsum_kernel_eq_skeleton]; unfold cc0__minsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KI.Frame.lean ====
/-
  The kernel program's run and frame, for any float instance.
  At each of the 20 grid points the body is handed the point's block of the padded unfolded input (288×640), the whole
  transposed weights (288×64) and an output staging buffer at anything, and leaves the inputs as they were and the output
  buffer covered by its one store. The proof data says so point by point; the launch theorem for a region followed by
  host operations then gives the whole run: it terminates, nothing faults, the three staged arrays end at what the
  proof data says, and every other buffer ends as the later host operations leave it — the two arguments, which no
  operation writes, as launched.
-/
import proofs.«122055_j66030827209197_2_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces for the output block tile it (one store of the whole block), so they cover it. -/
theorem cover0_A_2 (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) (y : S1x64x640.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S1x64x640.size (by sl_kernel_rfl) y

/-- What the body leaves in the output's staging buffer: its pieces read back. -/
def out0_A_2 (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) : Vec F S1x64x640 .f32 :=
  VO0_2.read (Elt F) (VO0_2.writes (Elt F) VO0_2.junk (kernelRun0_A c i arg2 harg2 arg3 harg3 arg4 harg4 x0 x1).1)

/-! ## The pipeline's proof data -/

/-- The arrays as the region finds them; after the body at point t each input's buffer at its block and the output's at
    what the body's store left; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_A_2 c (grid0.coords t) (ms0_0 t) (hs0_0 t) (ms0_1 t) (hs0_1 t) (ms0_2 t) (hs0_2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_A_2 c (grid0.coords t) (ms0_0 t) (hs0_0 t) (ms0_1 t) (hs0_1 t) (ms0_2 t) (hs0_2 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks, so the run applies; the invariant passes through
    unread; the output's buffer ends covered by the body's pieces; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    staged array at what the proof data says and every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.Spec.lean ====
/-
  The function both programs compute, on the extended reals, and the one law of sums that joins their two arrangements.
  From the unfolded input XU (4 images × 288 patch entries × 3136 positions), the weights W2 (64 filters × 288 patch
  entries) and a scale mu, the result at image b, filter o and position (h, w) is
      mu · Σ_{k < 288} min( XU(b, k, 56·h + w), W2(o, k) ).
  The reference sums the 288 terms in one reduction; the kernel adds them to an accumulator in nine runs of 32. On the
  extended reals addition is commutative and associative with no side condition, so the two are equal whatever the
  entries are: no finiteness is used.
-/
import Idealize.ShloMosaic.PureOps.Ideal
import Idealize.ShloMosaic.Lib.ValueIdx
import Mathlib.Algebra.BigOperators.Intervals
import Mathlib.Algebra.BigOperators.Fin

noncomputable section

open scoped BigOperators

namespace Cert.MinSum

open Idealize.ShloMosaic Idealize.ShloMosaic.ValueIdx

/-- The unfolded input: 4 images, 288 = 32·9 patch entries, 3136 = 56·56 positions. -/
abbrev SX : Shape := ⟨3, ![4, 288, 3136]⟩
/-- The weights, one row of 288 per filter. -/
abbrev SW : Shape := ⟨2, ![64, 288]⟩
/-- The result: 4 images, 64 filters, 56 × 56 positions. -/
abbrev SO : Shape := ⟨4, ![4, 64, 56, 56]⟩

/-- Position (h, w) of a 56 × 56 image, as a column of the unfolded input. -/
def col (h w : Fin 56) : Fin 3136 := ⟨h.val * 56 + w.val, by have := h.isLt; have := w.isLt; omega⟩

@[simp] theorem col_val (h w : Fin 56) : (col h w).val = h.val * 56 + w.val := rfl

/-- The result at explicit coordinates. -/
def Gat (XU : FVec Ideal SX .f32) (W2 : FVec Ideal SW .f32) (mu : EReal) (b : Fin 4) (o : Fin 64) (h w : Fin 56) : EReal :=
  mu * ∑ k : Fin 288, min (XU (ix3 b k (col h w))) (W2 (ix2 o k))

/-- The result as an array. -/
def G (XU : FVec Ideal SX .f32) (W2 : FVec Ideal SW .f32) (mu : EReal) : FVec Ideal SO .f32 :=
  fun i => Gat XU W2 mu (i 0) (i 1) (i 2) (i 3)

theorem G_ix4 (XU : FVec Ideal SX .f32) (W2 : FVec Ideal SW .f32) (mu : EReal) (b : Fin 4) (o : Fin 64) (h w : Fin 56) :
    G XU W2 mu (ix4 b o h w) = Gat XU W2 mu b o h w := rfl

/-- The accumulator after n runs of 32 terms, starting from zero. -/
def accUpTo (f : ℕ → EReal) : ℕ → EReal
  | 0 => 0
  | n + 1 => accUpTo f n + ∑ r : Fin 32, f (32 * n + r.val)

theorem accUpTo_zero (f : ℕ → EReal) : accUpTo f 0 = 0 := rfl
theorem accUpTo_succ (f : ℕ → EReal) (n : ℕ) : accUpTo f (n + 1) = accUpTo f n + ∑ r : Fin 32, f (32 * n + r.val) := rfl

/-- n runs of 32 terms are the first 32·n terms. -/
theorem accUpTo_eq_range (f : ℕ → EReal) (n : ℕ) : accUpTo f n = ∑ k ∈ Finset.range (32 * n), f k := by
  induction n with
  | zero => simp [accUpTo]
  | succ n ih =>
    rw [accUpTo_succ, ih, Nat.mul_succ, Finset.sum_range_add, Finset.sum_range (fun x => f (32 * n + x))]

/-- Nine runs of 32 terms are all 288 terms. -/
theorem accUpTo_nine (f : ℕ → EReal) : accUpTo f 9 = ∑ k : Fin 288, f k.val := by
  rw [accUpTo_eq_range, Finset.sum_range]

end Cert.MinSum

end
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.LibMidAxis.lean ====
/-
  Rank-3 arrays `[a, b, c]` — `a` rows, each with `b` members, each member with `c` channels — read at an index.

  A per-row vector `[a, c]` is viewed `[a, 1, c]` and broadcast over the members; a per-member scalar `[a, b]` is
  viewed `[a, b, 1]`.  A sum along the last axis reads, at `(r, k)`, the sum of member `k`'s channels; a sum or a
  maximum along the middle axis reads, at `(r, d)`, the sum or the greatest of channel `d` over the row's members.
  All of it at any extents, on the extended reals where a reduction is involved.
-/
import Idealize.ShloMosaic.PureOps.Ideal.Laws
import Idealize.ShloMosaic.Lib.ValueIdx
import Idealize.ShloMosaic.Lib.ValueLayout
import Idealize.ShloMosaic.Lib.Pipeline.Value
import proofs.«122055_j66030827209197_2_alg».proof.Proof.LibPoolFold

noncomputable section

open scoped BigOperators

namespace Cert.MidAxis

open Idealize.ShloMosaic Idealize.ShloMosaic.ValueIdx Cert.PoolFold

variable {α : Type}

/-- `[a, c]` viewed `[a, 1, c]`: entry `(r, u, j)` is entry `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_two, Shape.rowMajor_val_three]
    show r.val * c + j.val = (r.val * 1 + u.val) * c + j.val
    rw [hu, Nat.mul_one, Nat.add_zero])

/-- `[a, 1, c]` broadcast over `b` members: entry `(r, k, j)` is entry `(r, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (j : Fin c) :
    broadcastTo ⟨3, ![a, b, c]⟩ x h (ix3 r k j) = x (ix3 r (0 : Fin 1) j) := by
  refine broadcastTo_apply x h (ix3 r k j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- `[a, b]` viewed `[a, b, 1]`: entry `(r, k, u)` is entry `(r, k)`. -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_two, Shape.rowMajor_val_three]
    show r.val * b + k.val = (r.val * b + k.val) * 1 + u.val
    rw [hu, Nat.mul_one, Nat.add_zero])

/-- The sum along the last axis reads, at `(r, k)`, the sum of member `k`'s channels. -/
theorem sumLast_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (r : Fin a) (k : Fin b) :
    multiReduction .add [2] ⟨2, ![a, b]⟩ src 0x00000000#32 h hφ hacc (ix2 r k) = ∑ j : Fin c, src (ix3 r k j) := by
  refine (Ideal.multiReduction_add_single src 0x00000000#32 h hφ hacc (ix2 r k)).trans ?_
  refine Finset.sum_congr rfl fun j _ => congrArg src (funext fun ax => Fin.ext ?_)
  match ax with
  | ⟨0, _⟩ => rfl
  | ⟨1, _⟩ => rfl
  | ⟨2, _⟩ => rfl

/-- The sum along the middle axis reads, at `(r, d)`, the sum of channel `d` over the row's members. -/
theorem sumMid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (r : Fin a) (d : Fin c) :
    multiReduction .add [1] ⟨2, ![a, c]⟩ src 0x00000000#32 h hφ hacc (ix2 r d) = ∑ k : Fin b, src (ix3 r k d) := by
  refine (Ideal.multiReduction_add_single src 0x00000000#32 h hφ hacc (ix2 r d)).trans ?_
  refine Finset.sum_congr rfl fun k _ => congrArg src (funext fun ax => Fin.ext ?_)
  match ax with
  | ⟨0, _⟩ => rfl
  | ⟨1, _⟩ => rfl
  | ⟨2, _⟩ => rfl

/-- The maximum along the middle axis, started from -∞ (the word `0xFF800000`), reads, at `(r, d)`, the greatest
    of -∞ and channel `d` of the row's members. -/
theorem maxMid_apply {a b c : ℕ} (src : FVec Ideal ⟨3, ![a, b, c]⟩ .f32)
    (h : (⟨3, ![a, b, c]⟩ : Shape).Reduces [1] ⟨2, ![a, c]⟩) (hφ : FKind.Formats .f32)
    (hacc : (0xFF800000#32 : BitVec 32) = 0xFF800000#32) (r : Fin a) (d : Fin c) :
    multiReduction .maximumf [1] ⟨2, ![a, c]⟩ src 0xFF800000#32 h hφ hacc (ix2 r d)
      = maxOver (Ideal.ofBits .f32 0xFF800000#32) (fun k : Fin b => src (ix3 r k d)) := by
  refine (Ideal.multiReduction_maximumf_single src 0xFF800000#32 h hφ hacc (ix2 r d)).trans ?_
  unfold maxOver
  refine congrArg (fun g => (Finset.univ : Finset (Fin b)).fold max (Ideal.ofBits .f32 0xFF800000#32) g) (funext fun k => ?_)
  refine congrArg src (funext fun ax => Fin.ext ?_)
  match ax with
  | ⟨0, _⟩ => rfl
  | ⟨1, _⟩ => rfl
  | ⟨2, _⟩ => rfl

end Cert.MidAxis

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibQuantBlock.lean ====
/-
  A quantised weight block, read at an index.

  A matrix of `r` rows and `g · c` columns is stored as integers with one scale per row and per group of `c`
  consecutive columns.  Dequantising it is: read the integers signed, view the `[r, g · c]` array as `[r, g, c]`,
  view the `[r, g]` scales as `[r, g, 1]` and repeat each along the lane axis to `[r, g, c]`, multiply entry by
  entry, and view the product as `[r, g · c]` again.  Entry `(p, k)` of the result is the integer at `(p, k)`
  times the scale at `(p, k / c)`.  The scales may also arrive transposed, `[g, r]`.

  The layout steps are stated one by one at any extents (the two views between `[r, n]` and `[r, g, c]` with
  `n = g · c`: column `k = a · c + l` is lane `l` of group `a`; the trailing unit axis; the lane broadcast), then
  the whole term on the extended reals, with the scales as given or transposed, in the vector unit's spelling.
  A product `l · rᵀ` (second axes contracted) into a zero accumulator reads at `(q, d)` the sum over `p` of
  `l (q, p) · r (d, p)`, whatever the operands' float formats.
-/
import Idealize.ShloMosaic.PureOps.Ideal.Laws
import Idealize.ShloMosaic.Lib.ValueIdx
import Idealize.ShloMosaic.Lib.ValueLayout
import Idealize.ShloMosaic.Lib.Pipeline.Value
import proofs.«122055_j66030827209197_2_alg».proof.Proof.LibRowBlocks

noncomputable section

open scoped BigOperators

namespace Cert.QuantBlock

open Idealize.ShloMosaic Idealize.ShloMosaic.ValueIdx

variable {α : Type}

/-- `[r, n]` viewed `[r, g, c]` (`n = g · c`): entry `(q, a, l)` is column `k = a · c + l` of row `q`. -/
theorem shapeCast_splitCols_apply {r g c n : ℕ} (x : (⟨2, ![r, n]⟩ : Shape).Idx → α)
    (h : (⟨2, ![r, n]⟩ : Shape).ShapeCasts ⟨3, ![r, g, c]⟩) (q : Fin r) (a : Fin g) (l : Fin c) (k : Fin n)
    (hn : n = g * c) (hk : k.val = a.val * c + l.val) : shapeCast ⟨3, ![r, g, c]⟩ x h (ix3 q a l) = x (ix2 q k) :=
  shapeCast_apply x h _ _ (by
    rw [Shape.rowMajor_val_three, Shape.rowMajor_val_two]
    show q.val * n + k.val = (q.val * g + a.val) * c + l.val
    rw [hk, hn]; ring)

/-- `[r, g, c]` viewed `[r, n]` (`n = g · c`): column `k = a · c + l` of row `q` is entry `(q, a, l)`. -/
theorem shapeCast_mergeCols_apply {r g c n : ℕ} (x : (⟨3, ![r, g, c]⟩ : Shape).Idx → α)
    (h : (⟨3, ![r, g, c]⟩ : Shape).ShapeCasts ⟨2, ![r, n]⟩) (q : Fin r) (a : Fin g) (l : Fin c) (k : Fin n)
    (hn : n = g * c) (hk : k.val = a.val * c + l.val) : shapeCast ⟨2, ![r, n]⟩ x h (ix2 q k) = x (ix3 q a l) :=
  shapeCast_apply x h _ _ (by
    rw [Shape.rowMajor_val_three, Shape.rowMajor_val_two]
    show (q.val * g + a.val) * c + l.val = q.val * n + k.val
    rw [hk, hn]; ring)

/-- `[r, g]` viewed `[r, g, 1]`. -/
theorem shapeCast_unitLane_apply {r g : ℕ} (x : (⟨2, ![r, g]⟩ : Shape).Idx → α)
    (h : (⟨2, ![r, g]⟩ : Shape).ShapeCasts ⟨3, ![r, g, 1]⟩) (q : Fin r) (a : Fin g) (u : Fin 1) :
    shapeCast ⟨3, ![r, g, 1]⟩ x h (ix3 q a u) = x (ix2 q a) :=
  shapeCast_apply x h _ _ (by
    have hu : u.val = 0 := by omega
    rw [Shape.rowMajor_val_three, Shape.rowMajor_val_two]
    show q.val * g + a.val = (q.val * g + a.val) * 1 + u.val
    rw [hu]; ring)

/-- `[r, g, 1]` repeated along the lane axis to `[r, g, c]`. -/
theorem broadcastTo_lane_apply {r g c : ℕ} (x : (⟨3, ![r, g, 1]⟩ : Shape).Idx → α)
    (h : (⟨3, ![r, g, 1]⟩ : Shape).Broadcasts ⟨3, ![r, g, c]⟩) (q : Fin r) (a : Fin g) (l : Fin c) :
    broadcastTo ⟨3, ![r, g, c]⟩ x h (ix3 q a l) = x (ix3 q a (0 : Fin 1)) := by
  refine broadcastTo_apply x h (ix3 q a l) (ix3 q a (0 : Fin 1)) fun ax => ?_
  match ax with
  | ⟨0, _⟩ =>
    show q.val = if r = 1 then 0 else q.val
    split
    · have := q.isLt; omega
    · rfl
  | ⟨1, _⟩ =>
    show a.val = if g = 1 then 0 else a.val
    split
    · have := a.isLt; omega
    · rfl
  | ⟨2, _⟩ =>
    show (0 : ℕ) = if (1 : ℕ) = 1 then 0 else l.val
    rw [if_pos rfl]

/-- The group of a column. -/
abbrev grp {g c : ℕ} (k : Fin (g * c)) : Fin g :=
  ⟨k.val / c, Nat.div_lt_of_lt_mul (lt_of_lt_of_eq k.isLt (Nat.mul_comm g c))⟩

/-- THE DEQUANTISED BLOCK on the extended reals: the integer, read signed, times its row's and group's scale. -/
theorem dequant_apply {r g c : ℕ} (hc : 0 < c) (qw : IVec (⟨2, ![r, g * c]⟩ : Shape) 32) (s : FVec Ideal ⟨2, ![r, g]⟩ .f32)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ s h2) h3)) h4 (ix2 p k)
      = (((qw (ix2 p k)).toInt : ℝ) : EReal) * s (ix2 p (grp k)) := by
  have hk : k.val = (grp k).val * c + (⟨k.val % c, Nat.mod_lt _ hc⟩ : Fin c).val := (Nat.div_add_mod' k.val c).symm
  rw [shapeCast_mergeCols_apply _ h4 p (grp k) ⟨k.val % c, Nat.mod_lt _ hc⟩ k rfl hk]
  show FloatOps.mulf (shapeCast ⟨3, ![r, g, c]⟩ (sitofp (F := Ideal) .f32 qw) h1 (ix3 p (grp k) ⟨k.val % c, Nat.mod_lt _ hc⟩))
      (broadcastTo ⟨3, ![r, g, c]⟩ (shapeCast ⟨3, ![r, g, 1]⟩ s h2) h3 (ix3 p (grp k) ⟨k.val % c, Nat.mod_lt _ hc⟩)) = _
  rw [shapeCast_splitCols_apply _ h1 p (grp k) ⟨k.val % c, Nat.mod_lt _ hc⟩ k rfl hk, broadcastTo_lane_apply,
    shapeCast_unitLane_apply]
  rfl

/-- The same with the scales arriving transposed, `[g, r]`: the scale of row `p` and group `a` is entry `(a, p)`. -/
theorem dequantT_apply {r g c : ℕ} (hc : 0 < c) (qw : IVec (⟨2, ![r, g * c]⟩ : Shape) 32) (st : FVec Ideal ⟨2, ![g, r]⟩ .f32)
    (ht : (⟨2, ![g, r]⟩ : Shape).Transposes [1, 0] ⟨2, ![r, g]⟩)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ (transpose ⟨2, ![r, g]⟩ [1, 0] st ht) h2) h3)) h4 (ix2 p k)
      = (((qw (ix2 p k)).toInt : ℝ) : EReal) * st (ix2 (grp k) p) := by
  rw [dequant_apply hc qw (transpose ⟨2, ![r, g]⟩ [1, 0] st ht) h1 h2 h3 h4 p k, transpose_ix2_apply]

/-- `l · rᵀ` into a zero accumulator, whatever the operands' formats: at `(q, d)` the sum over `p` of `l (q, p) · r (d, p)`. -/
theorem matmul_abT_apply {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ φ₁) (r : FVec Ideal ⟨2, ![N, K]⟩ φ₂)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (Cert.RowBlocks.abT_sum D h1 h2 h3 h4 h5 h6 l r q d)

end Cert.QuantBlock

end
-- ==== Proof.KI.BodyValue.lean ====
/-
  What the kernel body leaves in the output block, as a function of its two input blocks.
  For any float instance: the body's one store covers the output block, so what the block holds is the stored payload —
  the accumulator after the loop's nine trips, with a unit axis put in front —, and one trip turns the accumulator acc into
  the trip's payload of acc, of rows 32k … 32k+31 of the input block and of the same rows of the weights.
  On the extended reals: a trip adds, at (o, l), the sum over its 32 rows r of min(weight(32k + r, o), input(0, 32k + r, l));
  the accumulator starts at zero; so after nine trips the block holds at (0, o, l) the nine runs of 32 terms added up
  from zero.
-/
import proofs.«122055_j66030827209197_2_alg».proof.Proof.KI.Frame
import proofs.«122055_j66030827209197_2_alg».proof.Proof.Spec
import proofs.«122055_j66030827209197_2_alg».proof.Proof.LibMidAxis
import proofs.«122055_j66030827209197_2_alg».proof.Proof.LibQuantBlock
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open scoped BigOperators

/-! ## For any float instance -/

section AnyInstance

variable {F : FTy → Type} [FloatOps F]

theorem hz3 : (![0, 0, 0] : Fin 3 → ℕ) = fun _ => 0 := by
  funext a; match a with | ⟨0, _⟩ => rfl | ⟨1, _⟩ => rfl | ⟨2, _⟩ => rfl

/-- The output block after the body is the payload of its one store: the accumulator the loop ends with. -/
theorem out_eq (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) :
    out0_A_2 (F := F) c i arg2 harg2 arg3 harg3 arg4 harg4 x0 x1
      = k0_pay3 (st_k0_t1 Variants.none c none i arg2 harg2 arg3 harg3 arg4 harg4 (harg2.unread x0) (harg3.unread x1) k0_pay1
          (Scf.trips (0#32) (Scalar.addi 0#32 9#32) 1#32)) := by
  unfold out0_A_2
  rw [View.read_writes_eq_canon _ _ _ (cover0_A_2 c i arg2 harg2 arg3 harg3 arg4 harg4 x0 x1)]
  unfold kernelRun0_A
  dsimp only
  exact View.canon_unit_zero hz3 _ _

/-- The rows a trip loads of the input block and of the weights. -/
def rows0 (x0 : Vec F S1x288x640 .f32) (k : Fin k0_t1_loop.trips) : Vec F S1x32x640 .f32 :=
  View.ld x0 (Rect.unit (s := S1x288x640) (k0_off1 k) S1x32x640.size (k0_off1_inb k))
def rows1 (x1 : Vec F S288x64 .f32) (k : Fin k0_t1_loop.trips) : Vec F S32x64 .f32 :=
  View.ld x1 (Rect.unit (s := S288x64) (k0_off2 k) S32x64.size (k0_off2_inb k))

/-- One trip's result: the trip's payload of the accumulator and of the rows it loads. -/
theorem tripR_eq (𝒱 : Variants) (c : Dev nD) (bd : Option 𝒱.V) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec F S1x288x640 .f32) (x1 : Vec F S288x64 .f32) (k : Fin k0_t1_loop.trips) (acc : FVec F S64x640 .f32) :
    tripR_k0_t1 (F := F) 𝒱 c bd i arg2 harg2 arg3 harg3 arg4 harg4 (harg2.unread x0) (harg3.unread x1) k acc
      = k0_pay2 acc (rows0 x0 k) (rows1 x1 k) := by
  unfold tripR_k0_t1 trip_k0_t1 rows0 rows1
  dsimp only
  simp only [View.readAt_eq_ld, harg2.read_unread, harg3.read_unread]

end AnyInstance

/-! ## The rows a trip loads, at an index (any float instance) -/

section Rows

variable {F : FTy → Type} [FloatOps F]

theorem trips_eq : k0_t1_loop.trips = 9 := by decide

/-- Row r of the weights' rows loaded at trip k is row 32k + r of the weights. -/
theorem rows1_apply (x1 : Vec F S288x64 .f32) (k : Fin k0_t1_loop.trips) (r : Fin 32) (o : Fin 64) (h : 32 * k.val + r.val < 288) :
    rows1 x1 k (ix2 r o) = x1 (ix2 ⟨32 * k.val + r.val, h⟩ o) := by
  unfold rows1
  show x1 ((Rect.unit (s := S288x64) (k0_off2 k) S32x64.size (k0_off2_inb k)).idx (ix2 r o)) = _
  refine congrArg x1 (funext fun a => Fin.ext ?_)
  have e := k0_off2_eq k
  match a with
  | ⟨0, _⟩ =>
    show (k0_off2 k) 0 + 1 * r.val = 32 * k.val + r.val
    rw [e]; simp
  | ⟨1, _⟩ =>
    show (k0_off2 k) 1 + 1 * o.val = o.val
    rw [e]; simp

/-- Row r of the input rows loaded at trip k is row 32k + r of the input block. -/
theorem rows0_apply (x0 : Vec F S1x288x640 .f32) (k : Fin k0_t1_loop.trips) (r : Fin 32) (l : Fin 640) (h : 32 * k.val + r.val < 288) :
    rows0 x0 k (ix3 (0 : Fin 1) r l) = x0 (ix3 (0 : Fin 1) ⟨32 * k.val + r.val, h⟩ l) := by
  unfold rows0
  show x0 ((Rect.unit (s := S1x288x640) (k0_off1 k) S1x32x640.size (k0_off1_inb k)).idx (ix3 (0 : Fin 1) r l)) = _
  refine congrArg x0 (funext fun a => Fin.ext ?_)
  have e := k0_off1_eq k
  match a with
  | ⟨0, _⟩ =>
    show (k0_off1 k) 0 + 1 * 0 = 0
    rw [e]; simp
  | ⟨1, _⟩ =>
    show (k0_off1 k) 1 + 1 * r.val = 32 * k.val + r.val
    rw [e]; simp
  | ⟨2, _⟩ =>
    show (k0_off1 k) 2 + 1 * l.val = l.val
    rw [e]; simp

end Rows

/-! ## On the extended reals -/

section AtIdeal

/-- The sum along the first axis of a 32 × 64 × 640 array, at (o, l): the sum over its 32 slabs. -/
theorem red0_apply (src : FVec Ideal S32x64x640 .f32) (h : S32x64x640.Reduces [0] S64x640) (hφ : FKind.Formats .f32)
    (hacc : (0x00000000#32 : BitVec 32) = FKind.add.neutral .f32 hφ) (o : Fin 64) (l : Fin 640) :
    multiReduction .add [0] S64x640 src 0x00000000#32 h hφ hacc (ix2 o l) = ∑ r : Fin 32, src (ix3 r o l) :=
  (Ideal.multiReduction_add_single src _ h hφ hacc (ix2 o l)).trans
    (Finset.sum_congr rfl fun r _ => congrArg src (funext fun a => match a with
      | ⟨0, _⟩ => rfl | ⟨1, _⟩ => rfl | ⟨2, _⟩ => rfl))

/-- One trip's payload at (o, l): the accumulator there plus the sum over the trip's 32 rows of the smaller of the
    weight at (r, o) and the input at (0, r, l). -/
theorem pay2_apply (acc : FVec Ideal S64x640 .f32) (v9 : Vec Ideal S1x32x640 .f32) (v12 : Vec Ideal S32x64 .f32) (o : Fin 64) (l : Fin 640) :
    k0_pay2 (F := Ideal) acc v9 v12 (ix2 o l) = acc (ix2 o l) + ∑ r : Fin 32, min (v12 (ix2 r o)) (v9 (ix3 (0 : Fin 1) r l)) := by
  unfold k0_pay2
  refine congrArg (acc (ix2 o l) + ·) ?_
  refine (red0_apply _ _ _ _ o l).trans (Finset.sum_congr rfl fun r _ => ?_)
  refine congrArg₂ min ?_ ?_
  · refine (Cert.QuantBlock.broadcastTo_lane_apply _ _ r o l).trans ?_
    refine (Cert.MidAxis.shapeCast_ab_ab1_apply _ _ r o (0 : Fin 1)).trans ?_
    exact congrFun (shapeCast_self _ _) _
  · refine (Cert.MidAxis.broadcastTo_a1c_abc_apply _ _ r o l).trans ?_
    refine (Cert.MidAxis.shapeCast_ac_a1c_apply _ _ r (0 : Fin 1) l).trans ?_
    exact ValueIdx.shapeCast_1ab_ab_apply _ _ r l

/-- The stored payload at (0, o, l) is the accumulator at (o, l). -/
theorem pay3_apply (v2 : FVec Ideal S64x640 .f32) (o : Fin 64) (l : Fin 640) :
    k0_pay3 (F := Ideal) v2 (ix3 (0 : Fin 1) o l) = v2 (ix2 o l) := by
  unfold k0_pay3
  exact ValueIdx.shapeCast_ab_1ab_apply _ _ (0 : Fin 1) o l

/-- The accumulator starts at zero. -/
theorem pay1_apply (j : S64x640.Idx) : k0_pay1 (F := Ideal) j = 0 := by
  unfold k0_pay1
  show Ideal.ofBits .f32 0x00000000#32 = 0
  exact Ideal.ofBits_zero_f32

/-- Term n of the sum at (o, l): the smaller of the weight at (n, o) and the input at (0, n, l) (zero past the 288 rows,
    which no run reaches). -/
def term (x0 : Vec Ideal S1x288x640 .f32) (x1 : Vec Ideal S288x64 .f32) (o : Fin 64) (l : Fin 640) (n : ℕ) : EReal :=
  if h : n < 288 then min (x1 (ix2 ⟨n, h⟩ o)) (x0 (ix3 (0 : Fin 1) ⟨n, h⟩ l)) else 0

/-- The accumulator before trip k is the first k runs of 32 terms added up from zero. -/
theorem st_apply (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec Ideal S1x288x640 .f32) (x1 : Vec Ideal S288x64 .f32) (o : Fin 64) (l : Fin 640) (k : ℕ) (hk : k ≤ 9) :
    st_k0_t1 (F := Ideal) Variants.none c none i arg2 harg2 arg3 harg3 arg4 harg4 (harg2.unread x0) (harg3.unread x1) k0_pay1 k (ix2 o l)
      = Cert.MinSum.accUpTo (term x0 x1 o l) k := by
  induction k with
  | zero => exact pay1_apply _
  | succ k ih =>
    have hk' : k < k0_t1_loop.trips := by rw [trips_eq]; omega
    have e := st_k0_t1_succ (F := Ideal) Variants.none c none i arg2 harg2 arg3 harg3 arg4 harg4 (harg2.unread x0) (harg3.unread x1) k0_pay1 ⟨k, hk'⟩
    rw [show (⟨k, hk'⟩ : Fin k0_t1_loop.trips).val + 1 = k + 1 from rfl] at e
    rw [e, tripR_eq, pay2_apply, ih (by omega), Cert.MinSum.accUpTo_succ]
    refine congrArg (_ + ·) (Finset.sum_congr rfl fun r _ => ?_)
    have hr : 32 * k + r.val < 288 := by have := r.isLt; omega
    rw [rows1_apply x1 ⟨k, hk'⟩ r o hr, rows0_apply x0 ⟨k, hk'⟩ r l hr]
    unfold term
    rw [dif_pos hr]

/-- What the body leaves in the output block at (0, o, l): the nine runs of 32 terms added up from zero. -/
theorem out_apply (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec Ideal S1x288x640 .f32) (x1 : Vec Ideal S288x64 .f32) (o : Fin 64) (l : Fin 640) :
    out0_A_2 (F := Ideal) c i arg2 harg2 arg3 harg3 arg4 harg4 x0 x1 (ix3 (0 : Fin 1) o l)
      = Cert.MinSum.accUpTo (term x0 x1 o l) 9 := by
  rw [out_eq, pay3_apply, show Scf.trips (0#32) (Scalar.addi 0#32 9#32) 1#32 = 9 from trips_eq]
  exact st_apply c i arg2 harg2 arg3 harg3 arg4 harg4 x0 x1 o l 9 (le_refl _)

end AtIdeal

end Cert.KernelIdeal.Val

end
-- ==== Proof.KI.ArrayValue.lean ====
/-
  From blocks to the array, on the extended reals.
  Grid point t = (b, s) of the 4 × 5 grid is handed block (b, 0, s) of the padded unfolded input — image b, all 288 rows,
  columns 640·s … 640·s + 639 — and the whole transposed weights, and writes back block (b, 0, s) of the 4 × 64 × 3200
  result. So entry (b, o, L) of the result array depends only on column L of image b and on column o of the weights: it is
  the nine runs of 32 terms min(Wt(n, o), Xp(b, n, L)), n < 288, added up from zero. The twenty blocks tile the array, so
  after the run the whole array is that function.
-/
import proofs.«122055_j66030827209197_2_alg».proof.Proof.KI.BodyValue

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- Term n of the sum at (b, o, L) over the whole arrays. -/
def termArr (Xp : S4x288x3200.Idx → EReal) (Wt : S288x64.Idx → EReal) (b : Fin 4) (o : Fin 64) (L : Fin 3200) (n : ℕ) : EReal :=
  if h : n < 288 then min (Wt (ix2 ⟨n, h⟩ o)) (Xp (ix3 b ⟨n, h⟩ L)) else 0

/-- The result array as one function of the padded unfolded input and the transposed weights. -/
def outArr (Xp : S4x288x3200.Idx → EReal) (Wt : S288x64.Idx → EReal) : S4x64x3200.Idx → EReal :=
  fun i => Cert.MinSum.accUpTo (termArr Xp Wt (i 0) (i 1) (i 2)) 9

/-- The body's block at a generic index of the block (not only at one written by coordinates). -/
theorem out_apply' (c : Dev nD) (i : grid0.Coords) (arg2 : Memref sig .tc .vmem S1x288x640 .f32) (harg2 : arg2.IsWhole) (arg3 : Memref sig .tc .vmem S288x64 .f32) (harg3 : arg3.IsWhole) (arg4 : Memref sig .tc .vmem S1x64x640 .f32) (harg4 : arg4.IsWhole)
    (x0 : Vec Ideal S1x288x640 .f32) (x1 : Vec Ideal S288x64 .f32) (y : S1x64x640.Idx) :
    out0_A_2 (F := Ideal) c i arg2 harg2 arg3 harg3 arg4 harg4 x0 x1 y = Cert.MinSum.accUpTo (term x0 x1 (y 1) (y 2)) 9 := by
  obtain ⟨u, o, l, rfl⟩ : ∃ (u : Fin 1) (o : Fin 64) (l : Fin 640), y = ix3 u o l := ⟨y 0, y 1, y 2, eq_ix3 y⟩
  obtain rfl : u = 0 := Subsingleton.elim _ _
  exact out_apply c i arg2 harg2 arg3 harg3 arg4 harg4 x0 x1 o l

/-- The printed index maps, decided over the grid: the weights' block is always the whole array; the input's block moves
    with the output's on the image and column axes and is the whole of the row axis; the output's block indices stay in
    their ranges. -/
theorem idx_facts : ∀ t : Fin cfg0.N, win0_1.index t (0 : Fin 2) = 0 ∧ win0_1.index t (1 : Fin 2) = 0
    ∧ win0_0.index t (0 : Fin 3) = win0_2.index t (0 : Fin 3) ∧ win0_0.index t (1 : Fin 3) = 0
    ∧ win0_0.index t (2 : Fin 3) = win0_2.index t (2 : Fin 3) ∧ win0_2.index t (1 : Fin 3) = 0
    ∧ win0_2.index t (0 : Fin 3) ≤ 3 ∧ win0_2.index t (2 : Fin 3) ≤ 4 :=
  (by decide +kernel : ∀ t : Fin grid0.N, _)

/-- Every block of the result array is some grid point's. -/
theorem idx_onto : ∀ (q0 : Fin 4) (q2 : Fin 5), ∃ t : Fin cfg0.N, win0_2.index t = ![q0.val, 0, q2.val] :=
  (by decide +kernel : ∀ (q0 : Fin 4) (q2 : Fin 5), ∃ t : Fin grid0.N, win0_2.index t = ![q0.val, 0, q2.val])

/-- What grid point t writes back is block t of the one function of the arrays the region finds. -/
theorem flushed_eq (c : Dev nD) (t : Fin cfg0.N) :
    (dats m 0 c).flushed 2 t = ((cfg0.win 2).blk t).view.read (Elt Ideal) (outArr (V m c main_v23) (V m c main_v22)) := by
  show (cfg0.win 2).cut (grid0.coords t) ((dats m 0 c).after 2 t) = _
  rw [after0_2]
  obtain ⟨e0, e1, e2, e3, e4, e5, e6, e7⟩ := idx_facts t
  funext j
  refine (out_apply' c (grid0.coords t) (ms0_0 t) (hs0_0 t) (ms0_1 t) (hs0_1 t) (ms0_2 t) (hs0_2 t) (iblk m c 0 t) (iblk m c 1 t) j).trans ?_
  show _ = Cert.MinSum.accUpTo (termArr (V m c main_v23) (V m c main_v22) ((((cfg0.win 2).blk t).view.emb j) 0) ((((cfg0.win 2).blk t).view.emb j) 1) ((((cfg0.win 2).blk t).view.emb j) 2)) 9
  refine congrArg (fun f => Cert.MinSum.accUpTo f 9) (funext fun n => ?_)
  unfold term termArr
  by_cases h : n < 288
  · rw [dif_pos h, dif_pos h]
    refine congrArg₂ min ?_ ?_
    · show V m c main_v22 (((cfg0.win 1).blk t).view.emb (ix2 ⟨n, h⟩ (j 1))) = V m c main_v22 (ix2 ⟨n, h⟩ ((((cfg0.win 2).blk t).view.emb j) 1))
      refine congrArg (V m c main_v22) (funext fun a => Fin.ext ?_)
      match a with
      | ⟨0, _⟩ => show win0_1.index t (0 : Fin 2) * 288 + 1 * n = n; omega
      | ⟨1, _⟩ => show win0_1.index t (1 : Fin 2) * 64 + 1 * (j 1).val = win0_2.index t (1 : Fin 3) * 64 + 1 * (j 1).val; omega
    · show V m c main_v23 (((cfg0.win 0).blk t).view.emb (ix3 (0 : Fin 1) ⟨n, h⟩ (j 2))) = V m c main_v23 (ix3 ((((cfg0.win 2).blk t).view.emb j) 0) ⟨n, h⟩ ((((cfg0.win 2).blk t).view.emb j) 2))
      refine congrArg (V m c main_v23) (funext fun a => Fin.ext ?_)
      have hj0 : (j 0).val = 0 := by have h1 : (j 0).val < 1 := (j 0).isLt; omega
      match a with
      | ⟨0, _⟩ => show win0_0.index t (0 : Fin 3) * 1 + 1 * 0 = win0_2.index t (0 : Fin 3) * 1 + 1 * (j 0).val; omega
      | ⟨1, _⟩ => show win0_0.index t (1 : Fin 3) * 288 + 1 * n = n; omega
      | ⟨2, _⟩ => show win0_0.index t (2 : Fin 3) * 640 + 1 * (j 2).val = win0_2.index t (2 : Fin 3) * 640 + 1 * (j 2).val; omega
  · rw [dif_neg h, dif_neg h]

/-- An index of the result array is in point t's block iff each coordinate is in the block's range on its axis. -/
theorem mem_blk (t : Fin cfg0.N) (i : S4x64x3200.Idx) :
    i ∈ ((cfg0.win 2).blk t).view.set ↔ ∀ a : Fin 3, win0_2.index t a * S1x64x640.size a ≤ (i a).val ∧ (i a).val < win0_2.index t a * S1x64x640.size a + S1x64x640.size a := by
  show i ∈ ((View.whole main_v24).slice (win0_2.rect t)).set ↔ _
  rw [View.set_slice_whole, Rect.mem_set_unit]
  exact Iff.rfl

/-- The twenty blocks cover the result array: index (b, o, L) is in the block of the point (b, L / 640). -/
theorem cover (i : S4x64x3200.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 3200 := (i 2).isLt
  obtain ⟨t, ht⟩ := idx_onto ⟨(i 0).val, by omega⟩ ⟨(i 2).val / 640, by omega⟩
  have q0 : win0_2.index t (0 : Fin 3) = (i 0).val := congrFun ht 0
  have q1 : win0_2.index t (1 : Fin 3) = 0 := congrFun ht 1
  have q2 : win0_2.index t (2 : Fin 3) = (i 2).val / 640 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 640 ≤ (i 2).val ∧ (i 2).val < win0_2.index t (2 : Fin 3) * 640 + 640; omega

/-- The result array after the run. -/
theorem final (c : Dev nD) : (dats m 0 c).arrAt 2 cfg0.N = outArr (V m c main_v23) (V m c main_v22) :=
  (dats m 0 c).arrAt_eq_of_cover 2 (outArr (V m c main_v23) (V m c main_v22)) (fun t _ => flushed_eq m c t) (cover)

end Cert.KernelIdeal.Val

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.KI.HostSides.lean ====
/-
  The host operations around the region, on the extended reals.
  Before the region: the array the first window stages is the reference's own unfolded input (the same pad, nine
  windows, unit axes, concatenation and reshape, of the same argument) padded with 64 columns of zeros on the right, so
  inside the first 3136 columns it reads the unfolded input; and the array the second window stages is the weights
  reshaped to 64 × 288 and transposed, so at (n, o) it reads the reshaped weights at (o, n).
  After the region: the program's result is the mean of the absolute weights — the reference's own scalar — broadcast and
  multiplied into the first 3136 columns of the region's result array, reshaped to 56 × 56.
-/
import proofs.«122055_j66030827209197_2_alg».proof.Proof.KI.ArrayValue
import proofs.«122055_j66030827209197_2_alg».proof.Proof.Gen.ReferenceIdeal.Read
import proofs.«122055_j66030827209197_2_alg».proof.Proof.LibPadSplit
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## Before the region -/

set_option maxHeartbeats 2000000 in
/-- The second window's array: the weights reshaped to 64 × 288, transposed. -/
theorem V_v22 (c : Dev nD) :
    (V m c main_v22 : S288x64.Idx → EReal)
      = transpose S288x64 [1, 0] (Cert.ReferenceIdeal.Read.val_main_v24 (F := Ideal) (m ((c : Thread nD τ).loc main_arg1))) transposes_S64x288_S288x64_1_0 := by
  dsimp only [V, V0]
  simp only [hostOps0, hostOps0_1, hostOps0_2, hostOps0_3, List.flatten_cons, List.flatten_nil, List.append_nil, List.cons_append, List.nil_append]
  after_results
  rfl

/-- Read at (n, o): the reshaped weights at (o, n). -/
theorem Wt_apply (c : Dev nD) (n : Fin 288) (o : Fin 64) :
    V m c main_v22 (ix2 n o) = Cert.ReferenceIdeal.Read.val_main_v24 (F := Ideal) (m ((c : Thread nD τ).loc main_arg1)) (ix2 o n) :=
  (congrFun (V_v22 m c) (ix2 n o)).trans (transpose_ix2_apply _ _ n o)

/-- The buffer contents just before the nine windows are concatenated: after the zero constant, the padding and the
    nine slices and their unit axes. -/
def R0 (c : Dev nD) : Valuation τ sig (Elt Ideal) :=
  after (hostOps0 ++ hostOps0_1 ++ (hostOps0_2 (F := Ideal)).take 18) (fun b => m (c, b))

/-- The region-entry contents are the remaining operations' (the concatenation, the reshapes, the transpose and the
    padding of the columns) from there. -/
theorem V0_eq (c : Dev nD) : V0 m c = after ((hostOps0_2 (F := Ideal)).drop 18 ++ hostOps0_3) (R0 m c) := by
  unfold R0
  rw [← Cert.PadSplit.after_append]
  rfl

set_option maxHeartbeats 1000000 in
/-- From any contents R before the concatenation, the unfolded input is the nine windows found in R, concatenated and
    reshaped to 288 rows. -/
theorem stage_v20 (R : Valuation τ sig (Elt Ideal)) :
    @Eq (S4x288x3136.Idx → EReal) (after ((hostOps0_2 (F := Ideal)).drop 18) R (Proc.devRef .tc main_v20))
      (shapeCast S4x288x3136 (concatenate S4x32x9x56x56 2
          [⟨S4x32x1x56x56, R (Proc.devRef .tc main_v10)⟩, ⟨S4x32x1x56x56, R (Proc.devRef .tc main_v11)⟩, ⟨S4x32x1x56x56, R (Proc.devRef .tc main_v12)⟩,
           ⟨S4x32x1x56x56, R (Proc.devRef .tc main_v13)⟩, ⟨S4x32x1x56x56, R (Proc.devRef .tc main_v14)⟩, ⟨S4x32x1x56x56, R (Proc.devRef .tc main_v15)⟩,
           ⟨S4x32x1x56x56, R (Proc.devRef .tc main_v16)⟩, ⟨S4x32x1x56x56, R (Proc.devRef .tc main_v17)⟩, ⟨S4x32x1x56x56, R (Proc.devRef .tc main_v18)⟩]
          concatenates_S4x32x1x56x56_S4x32x1x56x56_S4x32x1x56x56_S4x32x1x56x56_S4x32x1x56x56_S4x32x1x56x56_S4x32x1x56x56_S4x32x1x56x56_S4x32x1x56x56_S4x32x9x56x56_d2) shapeCasts_S4x32x9x56x56_S4x288x3136) := by
  simp only [hostOps0_2, List.drop_succ_cons, List.drop_zero]
  after_results
  rfl

/-- … and the integer constant the column padding converts is zero. -/
theorem stage_c0 (R : Valuation τ sig (Elt Ideal)) :
    @Eq (S_.Idx → BitVec 32) (after ((hostOps0_2 (F := Ideal)).drop 18) R (Proc.devRef .tc main_c_0)) (constantI S_ 32 0#32) := by
  simp only [hostOps0_2, List.drop_succ_cons, List.drop_zero]
  after_results

/-- From any contents R before the column padding, the first window's array is the unfolded input found in R padded
    with 64 columns of the converted constant. -/
theorem stage_pad (R : Valuation τ sig (Elt Ideal)) :
    @Eq (S4x288x3200.Idx → EReal) (after (hostOps0_3 (F := Ideal)) R (Proc.devRef .tc main_v23))
      (pad S4x288x3200 ![0, 0, 0] ![0, 0, 64] ![0, 0, 0] (R (Proc.devRef .tc main_v20))
        (sitofp .f32 (R (Proc.devRef .tc main_c_0)) : FVec Ideal S_ .f32) pads_S4x288x3136_S4x288x3200_000_000_0640 h_S_) := by
  simp only [hostOps0_3]
  after_results
  rfl

/-- Each of the nine windows, as found before the concatenation, is the reference's own. -/
theorem R0_w (c : Dev nD) :
    @Eq (S4x32x1x56x56.Idx → EReal) (R0 m c (Proc.devRef .tc main_v10)) (Cert.ReferenceIdeal.Read.val_main_v13 (F := Ideal) (m ((c : Thread nD τ).loc main_arg0)))
    ∧ @Eq (S4x32x1x56x56.Idx → EReal) (R0 m c (Proc.devRef .tc main_v11)) (Cert.ReferenceIdeal.Read.val_main_v14 (F := Ideal) (m ((c : Thread nD τ).loc main_arg0)))
    ∧ @Eq (S4x32x1x56x56.Idx → EReal) (R0 m c (Proc.devRef .tc main_v12)) (Cert.ReferenceIdeal.Read.val_main_v15 (F := Ideal) (m ((c : Thread nD τ).loc main_arg0)))
    ∧ @Eq (S4x32x1x56x56.Idx → EReal) (R0 m c (Proc.devRef .tc main_v13)) (Cert.ReferenceIdeal.Read.val_main_v16 (F := Ideal) (m ((c : Thread nD τ).loc main_arg0)))
    ∧ @Eq (S4x32x1x56x56.Idx → EReal) (R0 m c (Proc.devRef .tc main_v14)) (Cert.ReferenceIdeal.Read.val_main_v17 (F := Ideal) (m ((c : Thread nD τ).loc main_arg0)))
    ∧ @Eq (S4x32x1x56x56.Idx → EReal) (R0 m c (Proc.devRef .tc main_v15)) (Cert.ReferenceIdeal.Read.val_main_v18 (F := Ideal) (m ((c : Thread nD τ).loc main_arg0)))
    ∧ @Eq (S4x32x1x56x56.Idx → EReal) (R0 m c (Proc.devRef .tc main_v16)) (Cert.ReferenceIdeal.Read.val_main_v19 (F := Ideal) (m ((c : Thread nD τ).loc main_arg0)))
    ∧ @Eq (S4x32x1x56x56.Idx → EReal) (R0 m c (Proc.devRef .tc main_v17)) (Cert.ReferenceIdeal.Read.val_main_v20 (F := Ideal) (m ((c : Thread nD τ).loc main_arg0)))
    ∧ @Eq (S4x32x1x56x56.Idx → EReal) (R0 m c (Proc.devRef .tc main_v18)) (Cert.ReferenceIdeal.Read.val_main_v21 (F := Ideal) (m ((c : Thread nD τ).loc main_arg0))) := by
  unfold R0
  simp only [hostOps0, hostOps0_1, hostOps0_2, List.take_succ_cons, List.take_zero, List.cons_append, List.nil_append]
  refine ⟨?_, ?_, ?_, ?_, ?_, ?_, ?_, ?_, ?_⟩ <;> (after_results; rfl)

/-- The first window's array: the reference's unfolded input with 64 zero columns appended. -/
theorem V_v23 (c : Dev nD) :
    (V m c main_v23 : S4x288x3200.Idx → EReal)
      = pad S4x288x3200 ![0, 0, 0] ![0, 0, 64] ![0, 0, 0] (Cert.ReferenceIdeal.Read.val_main_v23 (F := Ideal) (m ((c : Thread nD τ).loc main_arg0)))
          (sitofp .f32 (constantI S_ 32 0#32) : FVec Ideal S_ .f32) pads_S4x288x3136_S4x288x3200_000_000_0640 h_S_ := by
  obtain ⟨e0, e1, e2, e3, e4, e5, e6, e7, e8⟩ := R0_w m c
  show V0 m c (Proc.devRef .tc main_v23) = _
  rw [V0_eq, Cert.PadSplit.after_append]
  refine (stage_pad _).trans ?_
  rw [stage_v20, stage_c0, e0, e1, e2, e3, e4, e5, e6, e7, e8]
  unfold Cert.ReferenceIdeal.Read.val_main_v23 Cert.ReferenceIdeal.Read.val_main_v22
  rfl

/-- Read at (b, n, L) with L among the first 3136 columns: the unfolded input there. -/
theorem Xp_apply (c : Dev nD) (b : Fin 4) (n : Fin 288) (L : Fin 3200) (hL : L.val < 3136) :
    V m c main_v23 (ix3 b n L) = Cert.ReferenceIdeal.Read.val_main_v23 (F := Ideal) (m ((c : Thread nD τ).loc main_arg0)) (ix3 b n ⟨L.val, hL⟩) :=
  (congrFun (V_v23 m c) (ix3 b n L)).trans (Cert.PadSplit.pad_last3_apply _ _ pads_S4x288x3136_S4x288x3200_000_000_0640 h_S_ b n L hL)

/-! ## After the region -/

set_option maxHeartbeats 2000000 in
/-- The program's result: the broadcast mean times the first 3136 columns of the region's result, reshaped. -/
theorem tail_eq (c : Dev nD) :
    @Eq (S4x64x56x56.Idx → EReal) (Pipeline.afterTail₀ cfgs (dats m) 0 (V0 m) [hostOps1] c main_v31)
      (mulf (F := Ideal) (φ := .f32) (broadcastInDim S4x64x56x56 ![] bcast_S_S4x64x56x56 (Cert.ReferenceIdeal.Read.val_main_v2 (F := Ideal) (m ((c : Thread nD τ).loc main_arg1))))
          (shapeCast S4x64x56x56 (extractStridedSlice S4x64x3136 ![0, 0, 0] (outArr (V m c main_v23) (V m c main_v22)) slices_S4x64x3200_S4x64x3136_0_0_0) shapeCasts_S4x64x3136_S4x64x56x56)) := by
  have e2 : Pipeline.withArrays (cfgs 0).spec c (V0 m c) (fun w => (dats m 0 c).arrAt w (cfgs 0).N) (Proc.devRef .tc main_v24) = outArr (V m c main_v23) (V m c main_v22) :=
    (Pipeline.withArrays_arr spec0 launch0.win.arr_inj c (V0 m c) _ 2).trans (final m c)
  have e1 : Pipeline.withArrays (cfgs 0).spec c (V0 m c) (fun w => (dats m 0 c).arrAt w (cfgs 0).N) (Proc.devRef .tc main_arg1) = m ((c : Thread nD τ).loc main_arg1) :=
    (Pipeline.withArrays_of_ne spec0 c (V0 m c) _ main_arg1 (by decide)).trans (V_main_arg1 m c)
  unfold Pipeline.afterTail₀
  show StableHlo.after hostOps1 _ (Proc.devRef .tc main_v31) = _
  after_results
  rw [e2, e1]
  rfl

end Cert.KernelIdeal.Val

end
-- ==== Proof.KI.KernelIsG.lean ====
/-
  The kernel program's result, on the extended reals, is the specification of the reference's own unfolded input, reshaped
  weights and mean.
  At (b, o, h, w) the result is the mean times entry (b, o, 56·h + w) of the region's result array; that entry is the nine runs
  of 32 terms min(Wt(n, o), Xp(b, n, 56·h + w)) added up from zero, which are all 288 terms; the column 56·h + w is among the first
  3136, where the padded input is the unfolded input, and the transposed weights at (n, o) are the reshaped weights at (o, n);
  and the smaller of two extended reals does not depend on their order. Nothing here needs the entries to be finite.
-/
import proofs.«122055_j66030827209197_2_alg».proof.Proof.KI.HostSides

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The reshape to 56 × 56 of the first 3136 columns of a 4 × 64 × 3200 array, at (b, o, h, w): column 56·h + w. -/
theorem reshape_slice_apply (X : S4x64x3200.Idx → EReal) (b : Fin 4) (o : Fin 64) (h w : Fin 56) :
    shapeCast S4x64x56x56 (extractStridedSlice S4x64x3136 ![0, 0, 0] X slices_S4x64x3200_S4x64x3136_0_0_0) shapeCasts_S4x64x3136_S4x64x56x56 (ix4 b o h w)
      = X (ix3 b o ⟨h.val * 56 + w.val, by have := h.isLt; have := w.isLt; omega⟩) := by
  have hh := h.isLt; have hw := w.isLt
  refine (shapeCast_apply _ shapeCasts_S4x64x3136_S4x64x56x56 (ix4 b o h w) (ix3 b o (Cert.MinSum.col h w)) (by
    rw [Shape.rowMajor_val_three, Shape.rowMajor_val_four]
    show (b.val * 64 + o.val) * 3136 + (h.val * 56 + w.val) = ((b.val * 64 + o.val) * 56 + h.val) * 56 + w.val
    omega)).trans ?_
  exact extractStridedSlice_apply _ X slices_S4x64x3200_S4x64x3136_0_0_0 (ix3 b o (Cert.MinSum.col h w)) _ (fun a => by
    match a with
    | ⟨0, _⟩ => show b.val = 0 + b.val; omega
    | ⟨1, _⟩ => show o.val = 0 + o.val; omega
    | ⟨2, _⟩ => show h.val * 56 + w.val = 0 + (h.val * 56 + w.val); omega)

/-- The program's result is the specification. -/
theorem kernel_is_G (c : Dev nD) :
    (Pipeline.afterTail₀ cfgs (dats m) 0 (V0 m) [hostOps1] c main_v31 : S4x64x56x56.Idx → EReal)
      = Cert.MinSum.G (Cert.ReferenceIdeal.Read.val_main_v23 (F := Ideal) (m ((c : Thread nD τ).loc main_arg0)))
          (Cert.ReferenceIdeal.Read.val_main_v24 (F := Ideal) (m ((c : Thread nD τ).loc main_arg1)))
          (Cert.ReferenceIdeal.Read.val_main_v2 (F := Ideal) (m ((c : Thread nD τ).loc main_arg1)) ix0) := by
  rw [tail_eq]
  funext i
  obtain ⟨b, o, h, w, rfl⟩ : ∃ (b : Fin 4) (o : Fin 64) (h w : Fin 56), i = ix4 b o h w := ⟨i 0, i 1, i 2, i 3, eq_ix4 i⟩
  have hh := h.isLt; have hw := w.isLt
  rw [Cert.MinSum.G_ix4]
  unfold Cert.MinSum.Gat
  refine (mulf_apply _ _ _).trans ?_
  rw [broadcastInDim_apply (![] : Fin 0 → Fin S4x64x56x56.rank) bcast_S_S4x64x56x56 _ (ix4 b o h w) ix0 (fun a => a.elim0), reshape_slice_apply]
  refine congrArg (fun z : EReal => (Cert.ReferenceIdeal.Read.val_main_v2 (F := Ideal) (m ((c : Thread nD τ).loc main_arg1)) ix0 : EReal) * z) ?_
  unfold outArr
  rw [Cert.MinSum.accUpTo_nine]
  refine Finset.sum_congr rfl fun k _ => ?_
  unfold termArr
  rw [dif_pos k.isLt, min_comm]
  refine congrArg₂ min ?_ ?_
  · exact Xp_apply m c b ⟨k.val, k.isLt⟩ ⟨h.val * 56 + w.val, by omega⟩ (by show h.val * 56 + w.val < 3136; omega)
  · exact Wt_apply m c ⟨k.val, k.isLt⟩ o

/-- The program runs to its end without a fault, its result is the specification, and both arguments end unchanged. -/
theorem run_value : θ_run defs (onTc (τ := τ) (main (F := Ideal))) ⟨m, fun _ => 0, ρ⟩ (fun r => ∀ c : Dev nD,
      r.2.mem ((c.tc : Thread nD τ).loc main_v31)
        = Cert.MinSum.G (Cert.ReferenceIdeal.Read.val_main_v23 (F := Ideal) (m ((c.tc : Thread nD τ).loc main_arg0)))
            (Cert.ReferenceIdeal.Read.val_main_v24 (F := Ideal) (m ((c.tc : Thread nD τ).loc main_arg1)))
            (Cert.ReferenceIdeal.Read.val_main_v2 (F := Ideal) (m ((c.tc : Thread nD τ).loc main_arg1)) ix0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v31 (Pipeline.mem_restRefs_of main_v31 (by decide) (by decide))).trans (kernel_is_G m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Val

end
-- ==== Proof.RefIsG.lean ====
/-
  The reference program's result, read one operation at a time, is the specification.
  The reference computes the mean of the absolute weights (mu), unfolds the input into 288 patch entries by 3136 positions
  (XU), reshapes the weights to 64 rows of 288 (W2), broadcasts both to 4 × 64 × 288 × 3136, takes the smaller entry by
  entry, sums over the 288 patch entries from zero, multiplies by mu and reshapes the 3136 positions to 56 × 56. Read at
  (b, o, h, w): position 56·h + w of the flat axis, the two broadcasts read XU at (b, k, 56·h + w) and W2 at (o, k), and the
  sum from zero is the sum.
-/
import proofs.«122055_j66030827209197_2_alg».proof.Proof.Gen.ReferenceIdeal.Read
import proofs.«122055_j66030827209197_2_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.ValueIdx
open scoped BigOperators

/-- The flat position of (b, o, h, w) in the 4 × 64 × 3136 array the reshape reads. -/
theorem idx33_eq (b : Fin 4) (o : Fin 64) (h w : Fin 56) :
    idx_main_v33 (ix4 b o h w) = ix3 b o (Cert.MinSum.col h w) := by
  have hb := b.isLt; have ho := o.isLt; have hh := h.isLt; have hw := w.isLt
  funext a; apply Fin.ext
  match a with
  | ⟨0, _⟩ => show (((b.val * 64 + o.val) * 56 + h.val) * 56 + w.val) / 200704 = b.val; omega
  | ⟨1, _⟩ => show (((b.val * 64 + o.val) * 56 + h.val) * 56 + w.val) / 3136 % 64 = o.val; omega
  | ⟨2, _⟩ => show (((b.val * 64 + o.val) * 56 + h.val) * 56 + w.val) % 3136 = h.val * 56 + w.val; omega

/-- The broadcast input at (b, o, k, L) reads the unfolded input at (b, k, L). -/
theorem idxX_eq (b : Fin 4) (o : Fin 64) (L : Fin 3136) (k : Fin 288) :
    idx_main_v25 (idx_main_v27 (idx_main_v30 (ix3 b o L) k)) = ix3 b k L := by
  funext a; apply Fin.ext
  match a with | ⟨0, _⟩ => rfl | ⟨1, _⟩ => rfl | ⟨2, _⟩ => rfl

/-- The broadcast weights at (b, o, k, L) read the reshaped weights at (o, k). -/
theorem idxW_eq (b : Fin 4) (o : Fin 64) (L : Fin 3136) (k : Fin 288) :
    idx_main_v26 (idx_main_v28 (idx_main_v30 (ix3 b o L) k)) = ix2 o k := by
  funext a; apply Fin.ext
  match a with | ⟨0, _⟩ => rfl | ⟨1, _⟩ => rfl

/-- The reference's result is the specification of its own unfolded input, reshaped weights and mean. -/
theorem ref_eq (x0 : (⟨S4x32x56x56, .f32⟩ : BufTy).Contents (Elt Ideal)) (x1 : (⟨S64x32x3x3, .f32⟩ : BufTy).Contents (Elt Ideal)) :
    val_main_v33 (F := Ideal) x0 x1
      = Cert.MinSum.G (val_main_v23 (F := Ideal) x0) (val_main_v24 (F := Ideal) x1) (val_main_v2 (F := Ideal) x1 ix0) := by
  funext i
  obtain ⟨b, o, h, w, rfl⟩ : ∃ (b : Fin 4) (o : Fin 64) (h w : Fin 56), i = ix4 b o h w := ⟨i 0, i 1, i 2, i 3, eq_ix4 i⟩
  rw [Cert.MinSum.G_ix4]
  unfold Cert.MinSum.Gat
  rw [val_main_v33_apply, idx33_eq, val_main_v32_apply, val_main_v31_apply, val_main_v30_apply, val_main_cst_1_apply]
  show val_main_v2 (F := Ideal) x1 ix0 * (Ideal.ofBits .f32 0x00000000#32 + _) = _
  rw [Ideal.ofBits_zero_f32, zero_add]
  refine congrArg (_ * ·) (Finset.sum_congr rfl fun k _ => ?_)
  rw [val_main_v29_apply, val_main_v27_apply, val_main_v25_apply, idxX_eq, val_main_v28_apply, val_main_v26_apply, idxW_eq]
  rfl

end Cert.ReferenceIdeal.RefValue

end
-- ==== Proof.lean ====
/-
  A min-plus "convolution": for an input of 4 images × 32 channels × 56 × 56 and weights of 64 filters × 32 channels × 3 × 3,
      z(b, o, h, w) = mean|weights| · Σ over the 288 entries k of a zero-padded 3 × 3 patch of min( patch(b, k, h, w), weights(o, k) ).
  The kernel program unfolds the input into patches on the host, pads the 3136 positions to 3200, and runs a pipelined region
  over a 4 × 5 grid whose body adds the 288 terms to an accumulator in nine runs of 32, then slices, reshapes and scales on the
  host; the reference program broadcasts, takes the minimum and sums the 288 terms in one reduction.
  The three frames: the two kernel programs' (word level and idealized) from the launch theorem for a region followed by host
  operations, the body run once per grid point with the loop taken through its invariant (Proof/K, Proof/KI); the reference's
  from its run. The idealization rewrote nothing. On the extended reals both results are one function of the same unfolded
  input, reshaped weights and mean (Proof/Spec, Proof/RefIsG, Proof/KI/KernelIsG): sums of extended reals may be regrouped and the
  smaller of two does not depend on their order, so the inputs' finiteness is never used.
-/
import proofs.«122055_j66030827209197_2_alg».proof.Defs
import proofs.«122055_j66030827209197_2_alg».proof.Proof.Gen.Kernel
import proofs.«122055_j66030827209197_2_alg».proof.Proof.Gen.KernelIdeal
import proofs.«122055_j66030827209197_2_alg».proof.Proof.Gen.ReferenceIdeal
import proofs.«122055_j66030827209197_2_alg».proof.Proof.Gen.Pre_finite_inputs
import proofs.«122055_j66030827209197_2_alg».proof.Proof.Gen.ReferenceIdeal.Run
import proofs.«122055_j66030827209197_2_alg».proof.Proof.Gen.ReferenceIdeal.Read
import proofs.«122055_j66030827209197_2_alg».proof.Proof.K.Frame
import proofs.«122055_j66030827209197_2_alg».proof.Proof.KI.Frame
import proofs.«122055_j66030827209197_2_alg».proof.Proof.KI.KernelIsG
import proofs.«122055_j66030827209197_2_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification of the unfolded input, the reshaped weights and the mean of the same
    arguments. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
